-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S1024x2048 : Shape := ⟨2, ![1024, 2048]⟩
abbrev S8192x1024 : Shape := ⟨2, ![8192, 1024]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S8192x1024 .f32) (main_arg5 : FVec F S2048x2048 .f32) (main_arg6 : FVec F S2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S16384x2048 .f32) (main_arg1 : FVec F S16384x2048 .f32) (main_arg2 : FVec F S2048x2048 .f32) (main_arg3 : FVec F S1024x2048 .f32) (main_arg4 : FVec F S8192x1024 .f32) (main_arg5 : FVec F S2048x2048 .f32) (main_arg6 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_v13 main_v16
-- ==== Kernel.lean ====
abbrev S16384x2048 : Shape := ⟨2, ![16384, 2048]⟩
abbrev S2048x2048 : Shape := ⟨2, ![2048, 2048]⟩
abbrev S1024x2048 : Shape := ⟨2, ![1024, 2048]⟩
abbrev S8192x1024 : Shape := ⟨2, ![8192, 1024]⟩
abbrev S2048 : Shape := ⟨1, ![2048]⟩
abbrev S2048x1024 : Shape := ⟨2, ![2048, 1024]⟩
abbrev S1x2048 : Shape := ⟨2, ![1, 2048]⟩
abbrev S128x2048 : Shape := ⟨2, ![128, 2048]⟩
abbrev S128x1024 : Shape := ⟨2, ![128, 1024]⟩

abbrev nBuf : Space → Nat
  | .hbm => 28
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S1024x2048, .f32⟩
  | .hbm, ⟨4, _⟩ => ⟨S8192x1024, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048x2048, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S1024x2048, .f32⟩
  | .hbm, ⟨16, _⟩ => ⟨S1024x2048, .bf16⟩
  | .hbm, ⟨17, _⟩ => ⟨S1024x2048, .f32⟩
  | .hbm, ⟨18, _⟩ => ⟨S1024x2048, .bf16⟩
  | .hbm, ⟨19, _⟩ => ⟨S1024x2048, .f32⟩
  | .hbm, ⟨20, _⟩ => ⟨S1024x2048, .bf16⟩
  | .hbm, ⟨21, _⟩ => ⟨S1024x2048, .f32⟩
  | .hbm, ⟨22, _⟩ => ⟨S1024x2048, .bf16⟩
  | .hbm, ⟨23, _⟩ => ⟨S2048x2048, .f32⟩
  | .hbm, ⟨24, _⟩ => ⟨S2048x2048, .bf16⟩
  | .hbm, ⟨25, _⟩ => ⟨S1x2048, .f32⟩
  | .hbm, ⟨26, _⟩ => ⟨S16384x2048, .f32⟩
  | .hbm, ⟨27, _⟩ => ⟨S16384x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S2048x2048, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S2048x2048_S2048x2048_1_0 : S2048x2048.Transposes [1, 0] S2048x2048
  bitsLt_bf16_f32 : FTy.bits .bf16 < FTy.bits .f32
  transposes_S1024x2048_S2048x1024_1_0 : S1024x2048.Transposes [1, 0] S2048x1024
  slices_S8192x1024_S2048x1024_0_0 : S8192x1024.Slices ![0, 0] S2048x1024
  slices_S8192x1024_S2048x1024_2048_0 : S8192x1024.Slices ![2048, 0] S2048x1024
  slices_S8192x1024_S2048x1024_4096_0 : S8192x1024.Slices ![4096, 0] S2048x1024
  slices_S8192x1024_S2048x1024_6144_0 : S8192x1024.Slices ![6144, 0] S2048x1024
  transposes_S2048x1024_S1024x2048_1_0 : S2048x1024.Transposes [1, 0] S1024x2048
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  dot_S128x2048_S2048x2048_S128x2048_1_0_0_1_n_n_wf : DotDims.WF S128x2048 S2048x2048 S128x2048 [1] [0] [0] [1] [] []
  dot_S128x2048_S2048x1024_S128x1024_1_0_0_1_n_n_wf : DotDims.WF S128x2048 S2048x1024 S128x1024 [1] [0] [0] [1] [] []
  dot_S128x1024_S1024x2048_S128x2048_1_0_0_1_n_n_wf : DotDims.WF S128x1024 S1024x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S16384x2048.size a
  hwx0_0 : ∀ i : grid0.Coords, EltTy.bits .f32 = 32 ∨ (Rect.block (s := S16384x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S16384x2048.size a
  hwx0_1 : ∀ i : grid0.Coords, EltTy.bits .f32 = 32 ∨ (Rect.block (s := S16384x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x1024.size a
  hwx0_3 : ∀ i : grid0.Coords, EltTy.bits .bf16 = 32 ∨ (Rect.block (s := S2048x1024) S2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .bf16 = 32 ∨ (Rect.block (s := S1024x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S1024x2048.size a
  hwx0_7 : ∀ i : grid0.Coords, EltTy.bits .bf16 = 32 ∨ (Rect.block (s := S1024x2048) S1024x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S16384x2048.size a
  hwx0_10 : ∀ i : grid0.Coords, EltTy.bits .f32 = 32 ∨ (Rect.block (s := S16384x2048) S128x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S16384x2048.size a
  hwx0_11 : ∀ i : grid0.Coords, EltTy.bits .f32 = 32 ∨ (Rect.block (s := S16384x2048) S128x2048.size (cc0_transform_11 i) (hinb0_11 i)).WholeWords (EltTy.packing .f32)

variable [Facts₀]

def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1024x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19_0) S128x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v19_1) S128x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S1024x2048 : Shape := ⟨2, ![1024, 2048]⟩
abbrev S8192x1024 : Shape := ⟨2, ![8192, 1024]⟩
abbrev S2048 : Shape := ⟨1, ![2048]⟩
abbrev S2048x1024 : Shape := ⟨2, ![2048, 1024]⟩
abbrev S16384x1024 : Shape := ⟨2, ![16384, 1024]⟩
abbrev S_ : Shape := ⟨0, ![]⟩
abbrev S1024x8192 : Shape := ⟨2, ![1024, 8192]⟩
abbrev S16384x8192 : Shape := ⟨2, ![16384, 8192]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S2048x2048, .f32⟩
  | .hbm, ⟨3, _⟩ => ⟨S1024x2048, .f32⟩
  | .hbm, ⟨4, _⟩ => ⟨S8192x1024, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S16384x2048, .f32⟩
  | .hbm, ⟨9, _⟩ => ⟨S2048x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x8192, .f32⟩
  | .hbm, ⟨21, _⟩ => ⟨S16384x8192, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S2048x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  transposes_S2048x2048_S2048x2048_1_0 : S2048x2048.Transposes [1, 0] S2048x2048
  transposes_S1024x2048_S2048x1024_1_0 : S1024x2048.Transposes [1, 0] S2048x1024
  bcast_S_S16384x1024 : S_.BroadcastsInDim S16384x1024 (![] : Fin 0 → Fin S16384x1024.rank)
  transposes_S8192x1024_S1024x8192_1_0 : S8192x1024.Transposes [1, 0] S1024x8192
  slices_S16384x8192_S16384x2048_0_0 : S16384x8192.Slices ![0, 0] S16384x2048
  slices_S16384x8192_S16384x2048_0_2048 : S16384x8192.Slices ![0, 2048] S16384x2048
  slices_S16384x8192_S16384x2048_0_4096 : S16384x8192.Slices ![0, 4096] S16384x2048
  slices_S16384x8192_S16384x2048_0_6144 : S16384x8192.Slices ![0, 6144] S16384x2048
  bcast_S_S16384x2048 : S_.BroadcastsInDim S16384x2048 (![] : Fin 0 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S2048x2048_S16384x2048_1_0_0_1_n_n_wf : DotDims.WF S16384x2048 S2048x2048 S16384x2048 [1] [0] [0] [1] [] []
  dot_S16384x2048_S2048x1024_S16384x1024_1_0_0_1_n_n_wf : DotDims.WF S16384x2048 S2048x1024 S16384x1024 [1] [0] [0] [1] [] []
  dot_S16384x1024_S1024x8192_S16384x8192_1_0_0_1_n_n_wf : DotDims.WF S16384x1024 S1024x8192 S16384x8192 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x8192_S16384x8192_1_0_0_1_n_n : DotDims S16384x1024 S1024x8192 S16384x8192 where
  lhsContracting := [1]
  rhsContracting := [0]
  lhsNonContracting := [0]
  rhsNonContracting := [1]
  lhsBatch := []
  rhsBatch := []
  wf := dot_S16384x1024_S1024x8192_S16384x8192_1_0_0_1_n_n_wf

class Facts : Prop extends Facts₀ where

variable [Facts]
-- ==== Proof.RowSpec.lean ====
/-
  One step of a selective state-space layer, read one batch row at a time.

  For a row `x` of the input (2048 features) and the same row `hp` of the previous state (2048 states):
    u s      = ∑ k, x k · W s k                        the input projection;
    pre h    = ∑ k, x k · Ws h k                       the selector's hidden pre-activation (1024 hidden units);
    sh h     = pre h · σ (pre h)                       its silu, σ z = 1 / (1 + e^(-z)) the logistic function;
    g_M s    = ∑ h, sh h · M s h                       one gate's pre-activation, for each of four gate matrices M;
    h' s     = σ (g_A s) · hp s + tanh (g_B s) · u s   the new state;
    y s      = tanh (g_C s) · h' s + (d s · σ (g_D s)) · u s
    out j    = ∑ s, y s · Wo j s                       the output projection.
  Every weight enters as a function of two coordinates, so that a program holding a weight transposed, or as four
  row bands of one stacked matrix, reads the SAME function of rows. Nothing here needs the entries to be finite:
  the two programs compared against this specification apply the same operations in the same grouping, and the sums
  are compared term by term.
-/
import Idealize.ShloMosaic.PureOps.Ideal
import Idealize.ShloMosaic.Lib.ValueIdx

noncomputable section

namespace Cert.SSM

open Idealize.ShloMosaic Idealize.ShloMosaic.ValueIdx

/-- The word of the float `1.0` denotes the real number one. -/
theorem one_bits : Ideal.ofBits .f32 0x3F800000#32 = 1 := by
  simp [Ideal.ofBits, Ideal.ieee, -EReal.coe_mul]; norm_num

/-- The input projection of a row: `u s = ∑ k, x k · W s k`. -/
def inProj (x : Fin 2048 → EReal) (W : Fin 2048 → Fin 2048 → EReal) (s : Fin 2048) : EReal :=
  ∑ k : Fin 2048, x k * W s k

/-- The selector's hidden pre-activation of a row: `pre h = ∑ k, x k · Ws h k`. -/
def selPre (x : Fin 2048 → EReal) (Ws : Fin 1024 → Fin 2048 → EReal) (h : Fin 1024) : EReal :=
  ∑ k : Fin 2048, x k * Ws h k

/-- Its silu: `pre h · σ (pre h)`. -/
def selH (x : Fin 2048 → EReal) (Ws : Fin 1024 → Fin 2048 → EReal) (h : Fin 1024) : EReal :=
  selPre x Ws h * Ideal.logistic (selPre x Ws h)

/-- One gate's pre-activation from the hidden row: `∑ h, sh h · M s h`. -/
def gate (sh : Fin 1024 → EReal) (M : Fin 2048 → Fin 1024 → EReal) (s : Fin 2048) : EReal :=
  ∑ h : Fin 1024, sh h * M s h

/-- The new state of a row: `σ (g_A s) · hp s + tanh (g_B s) · u s`. -/
def hNew (x hp : Fin 2048 → EReal) (W : Fin 2048 → Fin 2048 → EReal) (Ws : Fin 1024 → Fin 2048 → EReal)
    (Wa Wb : Fin 2048 → Fin 1024 → EReal) (s : Fin 2048) : EReal :=
  Ideal.logistic (gate (selH x Ws) Wa s) * hp s + Ideal.tanh (gate (selH x Ws) Wb s) * inProj x W s

/-- The row fed to the output projection: `tanh (g_C s) · h' s + (d s · σ (g_D s)) · u s`. -/
def yRow (x hp : Fin 2048 → EReal) (W : Fin 2048 → Fin 2048 → EReal) (Ws : Fin 1024 → Fin 2048 → EReal)
    (Wa Wb Wc Wd : Fin 2048 → Fin 1024 → EReal) (d : Fin 2048 → EReal) (s : Fin 2048) : EReal :=
  Ideal.tanh (gate (selH x Ws) Wc s) * hNew x hp W Ws Wa Wb s
    + (d s * Ideal.logistic (gate (selH x Ws) Wd s)) * inProj x W s

/-- The output row: `out j = ∑ s, y s · Wo j s`. -/
def outRow (x hp : Fin 2048 → EReal) (W : Fin 2048 → Fin 2048 → EReal) (Ws : Fin 1024 → Fin 2048 → EReal)
    (Wa Wb Wc Wd : Fin 2048 → Fin 1024 → EReal) (d : Fin 2048 → EReal) (Wo : Fin 2048 → Fin 2048 → EReal)
    (j : Fin 2048) : EReal :=
  ∑ s : Fin 2048, yRow x hp W Ws Wa Wb Wc Wd d s * Wo j s

/-! ## The two results as functions of the seven argument arrays -/

/-- Row `p` of a [16384, 2048] array. -/
def rowOf (X : (⟨2, ![16384, 2048]⟩ : Shape).Idx → EReal) (p : Fin 16384) : Fin 2048 → EReal :=
  fun k => X (ix2 p k)

/-- A [2048, 2048] weight as a function of (output unit, input unit). -/
def mat22 (W : (⟨2, ![2048, 2048]⟩ : Shape).Idx → EReal) : Fin 2048 → Fin 2048 → EReal :=
  fun s k => W (ix2 s k)

/-- The [1024, 2048] selector weight as a function of (hidden unit, input unit). -/
def mat12 (W : (⟨2, ![1024, 2048]⟩ : Shape).Idx → EReal) : Fin 1024 → Fin 2048 → EReal :=
  fun h k => W (ix2 h k)

/-- The [2048] skip vector as a function of the state. -/
def vec1 (D : (⟨1, ![2048]⟩ : Shape).Idx → EReal) : Fin 2048 → EReal :=
  fun s => D (ix1 s)

/-- Rows `off … off + 2047` of the stacked [8192, 1024] gate weight, as a matrix indexed (state, hidden unit). -/
def gateRows (off : Nat) (hoff : off + 2048 ≤ 8192) (Wso : (⟨2, ![8192, 1024]⟩ : Shape).Idx → EReal) :
    Fin 2048 → Fin 1024 → EReal :=
  fun s h => Wso (ix2 (⟨off + s.val, by have := s.isLt; omega⟩ : Fin 8192) h)

/-- The four gates' weights: the four row bands of the stacked weight, in order. -/
def bandA (Wso : (⟨2, ![8192, 1024]⟩ : Shape).Idx → EReal) : Fin 2048 → Fin 1024 → EReal := gateRows 0 (by omega) Wso
def bandB (Wso : (⟨2, ![8192, 1024]⟩ : Shape).Idx → EReal) : Fin 2048 → Fin 1024 → EReal := gateRows 2048 (by omega) Wso
def bandC (Wso : (⟨2, ![8192, 1024]⟩ : Shape).Idx → EReal) : Fin 2048 → Fin 1024 → EReal := gateRows 4096 (by omega) Wso
def bandD (Wso : (⟨2, ![8192, 1024]⟩ : Shape).Idx → EReal) : Fin 2048 → Fin 1024 → EReal := gateRows 6144 (by omega) Wso

/-- The new state at row `p`, column `q`, from the arrays as the reference holds them: the input and the previous
    state by rows, each weight indexed (output unit, input unit), the four gates the four row bands of the stacked
    weight. -/
def hAt (X H : (⟨2, ![16384, 2048]⟩ : Shape).Idx → EReal) (Win : (⟨2, ![2048, 2048]⟩ : Shape).Idx → EReal)
    (Wsi : (⟨2, ![1024, 2048]⟩ : Shape).Idx → EReal) (Wso : (⟨2, ![8192, 1024]⟩ : Shape).Idx → EReal)
    (p : Fin 16384) (q : Fin 2048) : EReal :=
  hNew (rowOf X p) (rowOf H p) (mat22 Win) (mat12 Wsi) (bandA Wso) (bandB Wso) q

/-- The output at row `p`, column `q`, likewise. -/
def outAt (X H : (⟨2, ![16384, 2048]⟩ : Shape).Idx → EReal) (Win : (⟨2, ![2048, 2048]⟩ : Shape).Idx → EReal)
    (Wsi : (⟨2, ![1024, 2048]⟩ : Shape).Idx → EReal) (Wso : (⟨2, ![8192, 1024]⟩ : Shape).Idx → EReal)
    (Wout : (⟨2, ![2048, 2048]⟩ : Shape).Idx → EReal) (Dv : (⟨1, ![2048]⟩ : Shape).Idx → EReal)
    (p : Fin 16384) (q : Fin 2048) : EReal :=
  outRow (rowOf X p) (rowOf H p) (mat22 Win) (mat12 Wsi) (bandA Wso) (bandB Wso) (bandC Wso) (bandD Wso)
    (vec1 Dv) (mat22 Wout) q

/-- The whole new-state array. -/
def Gh (X H : (⟨2, ![16384, 2048]⟩ : Shape).Idx → EReal) (Win : (⟨2, ![2048, 2048]⟩ : Shape).Idx → EReal)
    (Wsi : (⟨2, ![1024, 2048]⟩ : Shape).Idx → EReal) (Wso : (⟨2, ![8192, 1024]⟩ : Shape).Idx → EReal) :
    (⟨2, ![16384, 2048]⟩ : Shape).Idx → EReal :=
  fun i => hAt X H Win Wsi Wso (i 0) (i 1)

/-- The whole output array. -/
def Gout (X H : (⟨2, ![16384, 2048]⟩ : Shape).Idx → EReal) (Win : (⟨2, ![2048, 2048]⟩ : Shape).Idx → EReal)
    (Wsi : (⟨2, ![1024, 2048]⟩ : Shape).Idx → EReal) (Wso : (⟨2, ![8192, 1024]⟩ : Shape).Idx → EReal)
    (Wout : (⟨2, ![2048, 2048]⟩ : Shape).Idx → EReal) (Dv : (⟨1, ![2048]⟩ : Shape).Idx → EReal) :
    (⟨2, ![16384, 2048]⟩ : Shape).Idx → EReal :=
  fun i => outAt X H Win Wsi Wso Wout Dv (i 0) (i 1)

end Cert.SSM

end
-- ==== Proof.RefIsSpec.lean ====
/-
  The reference computes the row specification.

  Each stage of the reference, read at row `p` and one column, is the matching function of row `p` of the input
  and of the previous state: its matrix products are plain sums over the contracted coordinate, with each weight
  transposed on the way in, so that entry (k, s) of the transposed weight is entry (s, k) of the argument; the
  logistic function is spelt `1 / (1 + e^(-z))` with the float `1.0`, which is the real number one; the four gates
  are the four column bands of one [16384, 8192] product, so band `j`'s column `s` contracts the hidden row with
  row `2048·j + s` of the stacked weight.
-/
import proofs.«138219_j55301998903668_1_alg».proof.Proof.Gen.ReferenceIdeal.Read
import proofs.«138219_j55301998903668_1_alg».proof.Proof.RowSpec

noncomputable section

namespace Cert.ReferenceIdeal.RefValue

open Cert.ReferenceIdeal Cert.ReferenceIdeal.Read Cert.SSM Idealize.ShloMosaic Idealize.ShloMosaic.ValueIdx

variable (x0 x1 : (⟨S16384x2048, .f32⟩ : BufTy).Contents (Elt Ideal))
  (x2 : (⟨S2048x2048, .f32⟩ : BufTy).Contents (Elt Ideal)) (x3 : (⟨S1024x2048, .f32⟩ : BufTy).Contents (Elt Ideal))
  (x4 : (⟨S8192x1024, .f32⟩ : BufTy).Contents (Elt Ideal)) (x5 : (⟨S2048x2048, .f32⟩ : BufTy).Contents (Elt Ideal))
  (x6 : (⟨S2048, .f32⟩ : BufTy).Contents (Elt Ideal))

/-- The input projection at (p, s). -/
theorem u_at (p : Fin 16384) (s : Fin 2048) :
    val_main_v1 (F := Ideal) x0 x2 (ix2 p s) = inProj (rowOf x0 p) (mat22 x2) s := by
  rw [val_main_v1_apply]
  unfold inProj rowOf mat22
  refine Finset.sum_congr rfl fun k _ => ?_
  rw [val_main_v0_apply]
  have e1 : lidx_main_v1 (ix2 p s) k = ix2 p k := funext fun a => Fin.ext (by
    match a with
    | ⟨0, _⟩ => rfl
    | ⟨1, _⟩ => rfl)
  have e2 : idx_main_v0 (ridx_main_v1 (ix2 p s) k) = ix2 s k := funext fun a => Fin.ext (by
    match a with
    | ⟨0, _⟩ => rfl
    | ⟨1, _⟩ => rfl)
  rw [e1, e2]

/-- The selector's hidden pre-activation at (p, h). -/
theorem pre_at (p : Fin 16384) (h : Fin 1024) :
    val_main_v3 (F := Ideal) x0 x3 (ix2 p h) = selPre (rowOf x0 p) (mat12 x3) h := by
  rw [val_main_v3_apply]
  unfold selPre rowOf mat12
  refine Finset.sum_congr rfl fun k _ => ?_
  rw [val_main_v2_apply]
  have e1 : lidx_main_v3 (ix2 p h) k = ix2 p k := funext fun a => Fin.ext (by
    match a with
    | ⟨0, _⟩ => rfl
    | ⟨1, _⟩ => rfl)
  have e2 : idx_main_v2 (ridx_main_v3 (ix2 p h) k) = ix2 h k := funext fun a => Fin.ext (by
    match a with
    | ⟨0, _⟩ => rfl
    | ⟨1, _⟩ => rfl)
  rw [e1, e2]

/-- Its silu at (p, h): the reference spells the logistic function out. -/
theorem selH_at (p : Fin 16384) (h : Fin 1024) :
    val_main_v4 (F := Ideal) x0 x3 (ix2 p h) = selH (rowOf x0 p) (mat12 x3) h := by
  simp only [val_main_v4_apply, val_main_call0_v5_apply, val_main_call0_v4_apply, val_main_call0_cst_0_apply,
    val_main_call0_v3_apply, val_main_call0_v2_apply, val_main_call0_cst_apply, val_main_call0_v1_apply,
    val_main_call0_v0_apply, pre_at, Ideal.mulf_def, Ideal.hostDivf_def, Ideal.addf_def, Ideal.hostUnary_exp_def,
    Ideal.hostNegf_def, Ideal.negf_def, Ideal.ofBits_def, one_bits]
  rfl

/-- The [16384, 8192] product at (p, g): the hidden row against row `g` of the stacked gate weight. -/
theorem sel_at (p : Fin 16384) (g : Fin 8192) :
    val_main_v6 (F := Ideal) x0 x3 x4 (ix2 p g)
      = ∑ h : Fin 1024, selH (rowOf x0 p) (mat12 x3) h * x4 (ix2 g h) := by
  rw [val_main_v6_apply]
  refine Finset.sum_congr rfl fun h _ => ?_
  rw [val_main_v5_apply]
  have e1 : lidx_main_v6 (ix2 p g) h = ix2 p h := funext fun a => Fin.ext (by
    match a with
    | ⟨0, _⟩ => rfl
    | ⟨1, _⟩ => rfl)
  have e2 : idx_main_v5 (ridx_main_v6 (ix2 p g) h) = ix2 g h := funext fun a => Fin.ext (by
    match a with
    | ⟨0, _⟩ => rfl
    | ⟨1, _⟩ => rfl)
  rw [e1, e2, selH_at]

/-- The four gates' pre-activations at (p, s): the four column bands of that product. -/
theorem gateA_at (p : Fin 16384) (s : Fin 2048) :
    val_main_v7 (F := Ideal) x0 x3 x4 (ix2 p s) = gate (selH (rowOf x0 p) (mat12 x3)) (bandA x4) s := by
  rw [val_main_v7_apply]
  have e : idx_main_v7 (ix2 p s) = ix2 p (⟨0 + s.val, by have := s.isLt; omega⟩ : Fin 8192) := funext fun a => Fin.ext (by
    match a with
    | ⟨0, _⟩ => rfl
    | ⟨1, _⟩ => show s.val = 0 + s.val; omega)
  rw [e, sel_at]
  rfl
theorem gateB_at (p : Fin 16384) (s : Fin 2048) :
    val_main_v8 (F := Ideal) x0 x3 x4 (ix2 p s) = gate (selH (rowOf x0 p) (mat12 x3)) (bandB x4) s := by
  rw [val_main_v8_apply]
  have e : idx_main_v8 (ix2 p s) = ix2 p (⟨2048 + s.val, by have := s.isLt; omega⟩ : Fin 8192) := funext fun a => Fin.ext (by
    match a with
    | ⟨0, _⟩ => rfl
    | ⟨1, _⟩ => rfl)
  rw [e, sel_at]
  rfl
theorem gateC_at (p : Fin 16384) (s : Fin 2048) :
    val_main_v9 (F := Ideal) x0 x3 x4 (ix2 p s) = gate (selH (rowOf x0 p) (mat12 x3)) (bandC x4) s := by
  rw [val_main_v9_apply]
  have e : idx_main_v9 (ix2 p s) = ix2 p (⟨4096 + s.val, by have := s.isLt; omega⟩ : Fin 8192) := funext fun a => Fin.ext (by
    match a with
    | ⟨0, _⟩ => rfl
    | ⟨1, _⟩ => rfl)
  rw [e, sel_at]
  rfl
theorem gateD_at (p : Fin 16384) (s : Fin 2048) :
    val_main_v10 (F := Ideal) x0 x3 x4 (ix2 p s) = gate (selH (rowOf x0 p) (mat12 x3)) (bandD x4) s := by
  rw [val_main_v10_apply]
  have e : idx_main_v10 (ix2 p s) = ix2 p (⟨6144 + s.val, by have := s.isLt; omega⟩ : Fin 8192) := funext fun a => Fin.ext (by
    match a with
    | ⟨0, _⟩ => rfl
    | ⟨1, _⟩ => rfl)
  rw [e, sel_at]
  rfl

/-- The new state at (p, s). -/
theorem h_at (p : Fin 16384) (s : Fin 2048) :
    val_main_v27 (F := Ideal) x0 x1 x2 x3 x4 (ix2 p s)
      = hNew (rowOf x0 p) (rowOf x1 p) (mat22 x2) (mat12 x3) (bandA x4) (bandB x4) s := by
  simp only [val_main_v27_apply, val_main_v25_apply, val_main_v26_apply, val_main_v16_apply, val_main_v15_apply,
    val_main_cst_0_apply, val_main_v14_apply, val_main_v13_apply, val_main_cst_apply, val_main_v12_apply,
    val_main_v11_apply, val_main_v17_apply, gateA_at, gateB_at, u_at, Ideal.addf_def, Ideal.mulf_def,
    Ideal.hostDivf_def, Ideal.hostUnary_exp_def, Ideal.hostUnary_tanh_def, Ideal.hostNegf_def, Ideal.negf_def,
    Ideal.ofBits_def, one_bits]
  rfl

/-- The row fed to the output projection at (p, s). -/
theorem y_at (p : Fin 16384) (s : Fin 2048) :
    val_main_v33 (F := Ideal) x0 x1 x2 x3 x4 x6 (ix2 p s)
      = yRow (rowOf x0 p) (rowOf x1 p) (mat22 x2) (mat12 x3) (bandA x4) (bandB x4) (bandC x4) (bandD x4) (vec1 x6) s := by
  have e : idx_main_v29 (idx_main_v30 (ix2 p s)) = ix1 s := funext fun a => Fin.ext (by
    match a with
    | ⟨0, _⟩ => rfl)
  simp only [val_main_v33_apply, val_main_v28_apply, val_main_v18_apply, val_main_v32_apply, val_main_v31_apply,
    val_main_v30_apply, val_main_v29_apply, e, val_main_v24_apply, val_main_v23_apply, val_main_cst_2_apply,
    val_main_v22_apply, val_main_v21_apply, val_main_cst_1_apply, val_main_v20_apply, val_main_v19_apply,
    gateC_at, gateD_at, h_at, u_at, Ideal.addf_def, Ideal.mulf_def, Ideal.hostDivf_def, Ideal.hostUnary_exp_def,
    Ideal.hostUnary_tanh_def, Ideal.hostNegf_def, Ideal.negf_def, Ideal.ofBits_def, one_bits]
  rfl

/-- The output at (p, j). -/
theorem out_at (p : Fin 16384) (j : Fin 2048) :
    val_main_v35 (F := Ideal) x0 x1 x2 x3 x4 x5 x6 (ix2 p j)
      = outRow (rowOf x0 p) (rowOf x1 p) (mat22 x2) (mat12 x3) (bandA x4) (bandB x4) (bandC x4) (bandD x4) (vec1 x6) (mat22 x5) j := by
  rw [val_main_v35_apply]
  unfold outRow
  refine Finset.sum_congr rfl fun s _ => ?_
  rw [val_main_v34_apply]
  have e1 : lidx_main_v35 (ix2 p j) s = ix2 p s := funext fun a => Fin.ext (by
    match a with
    | ⟨0, _⟩ => rfl
    | ⟨1, _⟩ => rfl)
  have e2 : idx_main_v34 (ridx_main_v35 (ix2 p j) s) = ix2 j s := funext fun a => Fin.ext (by
    match a with
    | ⟨0, _⟩ => rfl
    | ⟨1, _⟩ => rfl)
  rw [e1, e2, y_at]
  rfl

/-- The reference's new-state result is the specification's. -/
theorem ref_h : val_main_v27 (F := Ideal) x0 x1 x2 x3 x4 = Gh x0 x1 x2 x3 x4 := by
  funext i
  obtain ⟨p, q, rfl⟩ : ∃ (p : Fin 16384) (q : Fin 2048), i = ix2 p q := ⟨i 0, i 1, eq_ix2 i⟩
  exact h_at x0 x1 x2 x3 x4 p q

/-- The reference's output result is the specification's. -/
theorem ref_out : val_main_v35 (F := Ideal) x0 x1 x2 x3 x4 x5 x6 = Gout x0 x1 x2 x3 x4 x5 x6 := by
  funext i
  obtain ⟨p, q, rfl⟩ : ∃ (p : Fin 16384) (q : Fin 2048), i = ix2 p q := ⟨i 0, i 1, eq_ix2 i⟩
  exact out_at x0 x1 x2 x3 x4 x5 x6 p q

end Cert.ReferenceIdeal.RefValue

end
-- ==== Proof.KernelMatmul.lean ====
/-
  The kernel's three matrix products, each read at one entry.

  The body multiplies a [128, K] block of rows by a whole [K, N] weight on the matrix unit, accumulating from zero;
  over the extended reals that is the plain sum `∑ k, a (r, k) · b (k, s)`. The three shapes are
  [128, 2048]·[2048, 2048] (the input and output projections), [128, 2048]·[2048, 1024] (the selector's hidden layer)
  and [128, 1024]·[1024, 2048] (each of the four gates). The contraction index of the dimension numbers has one
  axis; the sum is re-indexed through that axis' coordinate.
-/
import proofs.«138219_j55301998903668_1_alg».proof.Proof.Gen.KernelIdeal
import Idealize.ShloMosaic.Lib.ValueIdx
import Idealize.ShloMosaic.PureOps.Ideal.Laws

noncomputable section

namespace Cert.KernelIdeal.Hand

open Cert.KernelIdeal Idealize.ShloMosaic Idealize.ShloMosaic.ValueIdx

/-! ### A [128, 2048] block times a [2048, 2048] matrix -/

theorem lhs_state_0 (i : S128x2048.Idx) (q : dot_S128x2048_S2048x2048_S128x2048_1_0_0_1_n_n.contr.Idx) :
    (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem lhs_state_1 (i : S128x2048.Idx) (q : dot_S128x2048_S2048x2048_S128x2048_1_0_0_1_n_n.contr.Idx) :
    (dot_S128x2048_S2048x2048_S128x2048_1_0_0_1_n_n.lhsIdx i q 1).val = (q ⟨0, by decide⟩).val :=
  dot_S128x2048_S2048x2048_S128x2048_1_0_0_1_n_n.lhsIdx_val_of_single rfl i q
theorem rhs_state_0 (i : S128x2048.Idx) (q : dot_S128x2048_S2048x2048_S128x2048_1_0_0_1_n_n.contr.Idx) :
    (dot_S128x2048_S2048x2048_S128x2048_1_0_0_1_n_n.rhsIdx i q 0).val = (q ⟨0, by decide⟩).val :=
  dot_S128x2048_S2048x2048_S128x2048_1_0_0_1_n_n.rhsIdx_val_of_single rfl i q
theorem rhs_state_1 (i : S128x2048.Idx) (q : dot_S128x2048_S2048x2048_S128x2048_1_0_0_1_n_n.contr.Idx) :
    (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- Entry (r, s) of the product accumulated from zero is the plain sum `∑ k, a (r, k) · b (k, s)`. -/
theorem mm_state (a : FVec Ideal S128x2048 .bf16) (b : FVec Ideal S2048x2048 .bf16) (r : Fin 128) (s : Fin 2048) :
    matmul dot_S128x2048_S2048x2048_S128x2048_1_0_0_1_n_n none a b (constant S128x2048 .f32 0x00000000#32) (ix2 r s)
      = ∑ k : Fin 2048, a (ix2 r k) * b (ix2 k s) := by
  refine (Ideal.matmul_constant_zero_apply dot_S128x2048_S2048x2048_S128x2048_1_0_0_1_n_n none a b (ix2 r s)).trans ?_
  rw [← Equiv.sum_comp (ValueIdx.contrEquiv1 dot_S128x2048_S2048x2048_S128x2048_1_0_0_1_n_n 2048 rfl rfl).symm]
  refine Finset.sum_congr rfl fun k _ => ?_
  have hk := ValueIdx.contrEquiv1_symm_val dot_S128x2048_S2048x2048_S128x2048_1_0_0_1_n_n 2048 rfl rfl k
  have el : dot_S128x2048_S2048x2048_S128x2048_1_0_0_1_n_n.lhsIdx (ix2 r s) ((ValueIdx.contrEquiv1 dot_S128x2048_S2048x2048_S128x2048_1_0_0_1_n_n 2048 rfl rfl).symm k) = ix2 r k := funext fun a => Fin.ext (by
    match a with
    | ⟨0, _⟩ => exact lhs_state_0 _ _
    | ⟨1, _⟩ => exact (lhs_state_1 _ _).trans hk)
  have er : dot_S128x2048_S2048x2048_S128x2048_1_0_0_1_n_n.rhsIdx (ix2 r s) ((ValueIdx.contrEquiv1 dot_S128x2048_S2048x2048_S128x2048_1_0_0_1_n_n 2048 rfl rfl).symm k) = ix2 k s := funext fun a => Fin.ext (by
    match a with
    | ⟨0, _⟩ => exact (rhs_state_0 _ _).trans hk
    | ⟨1, _⟩ => exact rhs_state_1 _ _)
  rw [el, er]

/-! ### A [128, 2048] block times a [2048, 1024] matrix -/

theorem lhs_hidden_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem lhs_hidden_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem rhs_hidden_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem rhs_hidden_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- Entry (r, s) of the product accumulated from zero is the plain sum `∑ k, a (r, k) · b (k, s)`. -/
theorem mm_hidden (a : FVec Ideal S128x2048 .bf16) (b : FVec Ideal S2048x1024 .bf16) (r : Fin 128) (s : Fin 1024) :
    matmul dot_S128x2048_S2048x1024_S128x1024_1_0_0_1_n_n none a b (constant S128x1024 .f32 0x00000000#32) (ix2 r s)
      = ∑ k : Fin 2048, a (ix2 r k) * b (ix2 k s) := by
  refine (Ideal.matmul_constant_zero_apply dot_S128x2048_S2048x1024_S128x1024_1_0_0_1_n_n none a b (ix2 r s)).trans ?_
  rw [← Equiv.sum_comp (ValueIdx.contrEquiv1 dot_S128x2048_S2048x1024_S128x1024_1_0_0_1_n_n 2048 rfl rfl).symm]
  refine Finset.sum_congr rfl fun k _ => ?_
  have hk := ValueIdx.contrEquiv1_symm_val dot_S128x2048_S2048x1024_S128x1024_1_0_0_1_n_n 2048 rfl rfl k
  have el : dot_S128x2048_S2048x1024_S128x1024_1_0_0_1_n_n.lhsIdx (ix2 r s) ((ValueIdx.contrEquiv1 dot_S128x2048_S2048x1024_S128x1024_1_0_0_1_n_n 2048 rfl rfl).symm k) = ix2 r k := funext fun a => Fin.ext (by
    match a with
    | ⟨0, _⟩ => exact lhs_hidden_0 _ _
    | ⟨1, _⟩ => exact (lhs_hidden_1 _ _).trans hk)
  have er : dot_S128x2048_S2048x1024_S128x1024_1_0_0_1_n_n.rhsIdx (ix2 r s) ((ValueIdx.contrEquiv1 dot_S128x2048_S2048x1024_S128x1024_1_0_0_1_n_n 2048 rfl rfl).symm k) = ix2 k s := funext fun a => Fin.ext (by
    match a with
    | ⟨0, _⟩ => exact (rhs_hidden_0 _ _).trans hk
    | ⟨1, _⟩ => exact rhs_hidden_1 _ _)
  rw [el, er]

/-! ### A [128, 1024] block times a [1024, 2048] matrix -/

theorem lhs_gate_0 (i : S128x2048.Idx) (q : dot_S128x1024_S1024x2048_S128x2048_1_0_0_1_n_n.contr.Idx) :
    (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem lhs_gate_1 (i : S128x2048.Idx) (q : dot_S128x1024_S1024x2048_S128x2048_1_0_0_1_n_n.contr.Idx) :
    (dot_S128x1024_S1024x2048_S128x2048_1_0_0_1_n_n.lhsIdx i q 1).val = (q ⟨0, by decide⟩).val :=
  dot_S128x1024_S1024x2048_S128x2048_1_0_0_1_n_n.lhsIdx_val_of_single rfl i q
theorem rhs_gate_0 (i : S128x2048.Idx) (q : dot_S128x1024_S1024x2048_S128x2048_1_0_0_1_n_n.contr.Idx) :
    (dot_S128x1024_S1024x2048_S128x2048_1_0_0_1_n_n.rhsIdx i q 0).val = (q ⟨0, by decide⟩).val :=
  dot_S128x1024_S1024x2048_S128x2048_1_0_0_1_n_n.rhsIdx_val_of_single rfl i q
theorem rhs_gate_1 (i : S128x2048.Idx) (q : dot_S128x1024_S1024x2048_S128x2048_1_0_0_1_n_n.contr.Idx) :
    (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

/-- Entry (r, s) of the product accumulated from zero is the plain sum `∑ k, a (r, k) · b (k, s)`. -/
theorem mm_gate (a : FVec Ideal S128x1024 .bf16) (b : FVec Ideal S1024x2048 .bf16) (r : Fin 128) (s : Fin 2048) :
    matmul dot_S128x1024_S1024x2048_S128x2048_1_0_0_1_n_n none a b (constant S128x2048 .f32 0x00000000#32) (ix2 r s)
      = ∑ k : Fin 1024, a (ix2 r k) * b (ix2 k s) := by
  refine (Ideal.matmul_constant_zero_apply dot_S128x1024_S1024x2048_S128x2048_1_0_0_1_n_n none a b (ix2 r s)).trans ?_
  rw [← Equiv.sum_comp (ValueIdx.contrEquiv1 dot_S128x1024_S1024x2048_S128x2048_1_0_0_1_n_n 1024 rfl rfl).symm]
  refine Finset.sum_congr rfl fun k _ => ?_
  have hk := ValueIdx.contrEquiv1_symm_val dot_S128x1024_S1024x2048_S128x2048_1_0_0_1_n_n 1024 rfl rfl k
  have el : dot_S128x1024_S1024x2048_S128x2048_1_0_0_1_n_n.lhsIdx (ix2 r s) ((ValueIdx.contrEquiv1 dot_S128x1024_S1024x2048_S128x2048_1_0_0_1_n_n 1024 rfl rfl).symm k) = ix2 r k := funext fun a => Fin.ext (by
    match a with
    | ⟨0, _⟩ => exact lhs_gate_0 _ _
    | ⟨1, _⟩ => exact (lhs_gate_1 _ _).trans hk)
  have er : dot_S128x1024_S1024x2048_S128x2048_1_0_0_1_n_n.rhsIdx (ix2 r s) ((ValueIdx.contrEquiv1 dot_S128x1024_S1024x2048_S128x2048_1_0_0_1_n_n 1024 rfl rfl).symm k) = ix2 k s := funext fun a => Fin.ext (by
    match a with
    | ⟨0, _⟩ => exact (rhs_gate_0 _ _).trans hk
    | ⟨1, _⟩ => exact rhs_gate_1 _ _)
  rw [el, er]

end Cert.KernelIdeal.Hand

end
-- ==== Proof.KernelRow.lean ====
/-
  One entry of each block the kernel's body writes, as the row specification.

  At a grid point the body holds a [128, 2048] block of the input rows and of the previous state, and the seven
  weights whole, each already transposed: the input projection as (input unit, state), the selector's hidden layer as
  (input unit, hidden unit), each gate as (hidden unit, state), the output projection as (state, output unit), and
  the skip vector as one row. Entry (r, s) of every intermediate depends on row r of the two blocks only, and is the
  row function of the specification with each weight read through its transposition: same products, same sums, same
  grouping, the logistic function one operation here. Changes of float format are the identity on the extended
  reals, and a shape cast to the same shape is the identity.
-/
import proofs.«138219_j55301998903668_1_alg».proof.Proof.Gen.KernelIdeal.Skeleton
import proofs.«138219_j55301998903668_1_alg».proof.Proof.KernelMatmul
import proofs.«138219_j55301998903668_1_alg».proof.Proof.RowSpec
import Idealize.ShloMosaic.Lib.Pipeline.Value

noncomputable section

namespace Cert.KernelIdeal.Hand

open Cert.KernelIdeal Cert.KernelIdeal.Gen Cert.SSM Idealize.ShloMosaic Idealize.ShloMosaic.TcCoe
  Idealize.ShloMosaic.ValueIdx

/-- Row `r` of a [128, 2048] block. -/
def blkRow (x : FVec Ideal S128x2048 .f32) (r : Fin 128) : Fin 2048 → EReal := fun k => x (ix2 r k)
/-- A [2048, 2048] weight held transposed, read as (output unit, input unit). -/
def tr22 (w : FVec Ideal S2048x2048 .bf16) : Fin 2048 → Fin 2048 → EReal := fun s k => w (ix2 k s)
/-- The selector's hidden weight held as (input unit, hidden unit), read as (hidden unit, input unit). -/
def tr21 (w : FVec Ideal S2048x1024 .bf16) : Fin 1024 → Fin 2048 → EReal := fun h k => w (ix2 k h)
/-- A gate's weight held as (hidden unit, state), read as (state, hidden unit). -/
def tr12 (w : FVec Ideal S1024x2048 .bf16) : Fin 2048 → Fin 1024 → EReal := fun s h => w (ix2 h s)
/-- The skip vector held as one row. -/
def row1 (d : FVec Ideal S1x2048 .f32) : Fin 2048 → EReal := fun s => d (ix2 (0 : Fin 1) s)

/-- The input projection's block at (r, s). -/
theorem u_blk (x0 : FVec Ideal S128x2048 .f32) (x2 : FVec Ideal S2048x2048 .bf16) (r : Fin 128) (s : Fin 2048) :
    k0_pay3 (F := Ideal) x0 x2 (ix2 r s) = inProj (blkRow x0 r) (tr22 x2) s := by
  refine (mm_state (k0_pay2 (F := Ideal) x0) (shapeCast S2048x2048 x2 shapeCasts_S2048x2048_S2048x2048) r s).trans ?_
  rw [shapeCast_self]
  rfl

/-- The selector's hidden pre-activation at (r, h), as the body's matrix product. -/
theorem pre_blk (x0 : FVec Ideal S128x2048 .f32) (x3 : FVec Ideal S2048x1024 .bf16) (r : Fin 128) (h : Fin 1024) :
    matmul dot_S128x2048_S2048x1024_S128x1024_1_0_0_1_n_n none (k0_pay2 (F := Ideal) x0) (shapeCast S2048x1024 x3 shapeCasts_S2048x1024_S2048x1024)
        (constant S128x1024 .f32 0x00000000#32) (ix2 r h)
      = selPre (blkRow x0 r) (tr21 x3) h := by
  refine (mm_hidden (k0_pay2 (F := Ideal) x0) (shapeCast S2048x1024 x3 shapeCasts_S2048x1024_S2048x1024) r h).trans ?_
  rw [shapeCast_self]
  rfl

/-- Its silu at (r, h). -/
theorem selH_blk (x0 : FVec Ideal S128x2048 .f32) (x3 : FVec Ideal S2048x1024 .bf16) (r : Fin 128) (h : Fin 1024) :
    k0_pay4 (F := Ideal) x0 x3 (ix2 r h) = selH (blkRow x0 r) (tr21 x3) h :=
  congrArg (fun z : EReal => z * Ideal.logistic z) (pre_blk x0 x3 r h)

/-- One gate's pre-activation at (r, s): the hidden block against that gate's weight. -/
theorem gate_blk (x0 : FVec Ideal S128x2048 .f32) (x3 : FVec Ideal S2048x1024 .bf16) (w : FVec Ideal S1024x2048 .bf16)
    (r : Fin 128) (s : Fin 2048) :
    matmul dot_S128x1024_S1024x2048_S128x2048_1_0_0_1_n_n none (k0_pay4 (F := Ideal) x0 x3) (shapeCast S1024x2048 w shapeCasts_S1024x2048_S1024x2048)
        (constant S128x2048 .f32 0x00000000#32) (ix2 r s)
      = gate (selH (blkRow x0 r) (tr21 x3)) (tr12 w) s := by
  refine (mm_gate (k0_pay4 (F := Ideal) x0 x3) (shapeCast S1024x2048 w shapeCasts_S1024x2048_S1024x2048) r s).trans ?_
  rw [shapeCast_self]
  exact Finset.sum_congr rfl fun h _ => congrArg (fun z : EReal => z * w (ix2 h s)) (selH_blk x0 x3 r h)

/-- The new state's block at (r, s). -/
theorem h_blk (x0 x1 : FVec Ideal S128x2048 .f32) (x2 : FVec Ideal S2048x2048 .bf16) (x3 : FVec Ideal S2048x1024 .bf16)
    (x4 x5 : FVec Ideal S1024x2048 .bf16) (r : Fin 128) (s : Fin 2048) :
    k0_pay6 (F := Ideal) x0 x1 x2 x3 x4 x5 (ix2 r s)
      = hNew (blkRow x0 r) (blkRow x1 r) (tr22 x2) (tr21 x3) (tr12 x4) (tr12 x5) s := by
  have key : ∀ a b u a' b' u' : EReal, a = a' → b = b' → u = u' →
      Ideal.logistic a * x1 (ix2 r s) + Ideal.tanh b * u = Ideal.logistic a' * x1 (ix2 r s) + Ideal.tanh b' * u' := by
    intro a b u a' b' u' h1 h2 h3; rw [h1, h2, h3]
  exact key _ _ _ _ _ _ (gate_blk x0 x3 x4 r s) (gate_blk x0 x3 x5 r s) (u_blk x0 x2 r s)

/-- The fourth gate, through the logistic function, at (r, s). -/
theorem dgate_blk (x0 : FVec Ideal S128x2048 .f32) (x3 : FVec Ideal S2048x1024 .bf16) (x7 : FVec Ideal S1024x2048 .bf16)
    (r : Fin 128) (s : Fin 2048) :
    k0_pay5 (F := Ideal) x0 x3 x7 (ix2 r s) = Ideal.logistic (gate (selH (blkRow x0 r) (tr21 x3)) (tr12 x7) s) :=
  congrArg Ideal.logistic (gate_blk x0 x3 x7 r s)

/-- The third gate, through tanh, times the new state, at (r, s). -/
theorem ch_blk (x0 x1 : FVec Ideal S128x2048 .f32) (x2 : FVec Ideal S2048x2048 .bf16) (x3 : FVec Ideal S2048x1024 .bf16)
    (x4 x5 x6 : FVec Ideal S1024x2048 .bf16) (r : Fin 128) (s : Fin 2048) :
    k0_pay7 (F := Ideal) x0 x1 x2 x3 x4 x5 x6 (ix2 r s)
      = Ideal.tanh (gate (selH (blkRow x0 r) (tr21 x3)) (tr12 x6) s)
          * hNew (blkRow x0 r) (blkRow x1 r) (tr22 x2) (tr21 x3) (tr12 x4) (tr12 x5) s := by
  have key : ∀ a b a' b' : EReal, a = a' → b = b' → Ideal.tanh a * b = Ideal.tanh a' * b' := by
    intro a b a' b' h1 h2; rw [h1, h2]
  exact key _ _ _ _ (gate_blk x0 x3 x6 r s) (h_blk x0 x1 x2 x3 x4 x5 r s)

/-- The skip vector broadcast over the block's rows, at (r, s). -/
theorem d_blk (x9 : FVec Ideal S1x2048 .f32) (r : Fin 128) (s : Fin 2048) : k0_pay8 (F := Ideal) x9 (ix2 r s) = row1 x9 s := by
  refine (broadcastTo_apply (shapeCast S1x2048 x9 shapeCasts_S1x2048_S1x2048) broadcasts_S1x2048_S128x2048 (ix2 r s)
    (ix2 (0 : Fin 1) s) (fun a => ?_)).trans ?_
  · match a with
    | ⟨0, _⟩ => show (0 : Nat) = if (1 : Nat) = 1 then 0 else r.val; rw [if_pos rfl]
    | ⟨1, _⟩ => show s.val = if (2048 : Nat) = 1 then 0 else s.val; rw [if_neg (by decide)]
  · rw [shapeCast_self]
    rfl

/-- The output block at (r, j). -/
theorem out_blk (x0 x1 : FVec Ideal S128x2048 .f32) (x2 : FVec Ideal S2048x2048 .bf16) (x3 : FVec Ideal S2048x1024 .bf16)
    (x4 x5 x6 x7 : FVec Ideal S1024x2048 .bf16) (x8 : FVec Ideal S2048x2048 .bf16) (x9 : FVec Ideal S1x2048 .f32)
    (r : Fin 128) (j : Fin 2048) :
    k0_pay1 (F := Ideal) (k0_pay3 (F := Ideal) x0 x2) (k0_pay5 (F := Ideal) x0 x3 x7) (k0_pay7 (F := Ideal) x0 x1 x2 x3 x4 x5 x6) (k0_pay8 (F := Ideal) x9) x8 (ix2 r j)
      = outRow (blkRow x0 r) (blkRow x1 r) (tr22 x2) (tr21 x3) (tr12 x4) (tr12 x5) (tr12 x6) (tr12 x7) (row1 x9)
          (tr22 x8) j := by
  have key : ∀ a b c d a' b' c' d' : EReal, a = a' → b = b' → c = c' → d = d' →
      a + (b * c) * d = a' + (b' * c') * d' := by
    intro a b c d a' b' c' d' h1 h2 h3 h4; rw [h1, h2, h3, h4]
  refine (mm_state
    (truncf .bf16 (addf (k0_pay7 (F := Ideal) x0 x1 x2 x3 x4 x5 x6) (mulf (mulf (k0_pay8 (F := Ideal) x9) (k0_pay5 (F := Ideal) x0 x3 x7)) (k0_pay3 (F := Ideal) x0 x2))) bitsLt_bf16_f32)
    (shapeCast S2048x2048 x8 shapeCasts_S2048x2048_S2048x2048) r j).trans ?_
  rw [shapeCast_self]
  exact Finset.sum_congr rfl fun s _ => congrArg (fun z : EReal => z * x8 (ix2 s j))
    (key _ _ _ _ _ _ _ _ (ch_blk x0 x1 x2 x3 x4 x5 x6 r s) (d_blk x9 r s) (dgate_blk x0 x3 x7 r s) (u_blk x0 x2 r s))

end Cert.KernelIdeal.Hand

end
-- ==== Proof.KernelWindows.lean ====
/-
  What each input window of the kernel's one region holds.

  The grid has 128 points; point `t` works on rows 128·t … 128·t + 127. The input, the previous state and the two
  results move with the point: their block at `t` is block row `t` of the array. The eight other windows stay on
  block (0, 0), which is their whole array. Those eight arrays are written by the host before the region: each
  weight transposed (so its entry (k, s) is the argument's entry (s, k)), the stacked gate weight first cut into its
  four bands of 2048 rows and each band transposed, the skip vector reshaped to one row. The changes of float format
  on the way are the identity on the extended reals.
-/
import proofs.«138219_j55301998903668_1_alg».proof.Proof.Gen.KernelIdeal.Frame
import proofs.«138219_j55301998903668_1_alg».proof.Proof.KernelRow
import Idealize.ShloMosaic.Lib.StableHlo.Run
import Idealize.ShloMosaic.Lib.Pipeline.Value

noncomputable section

namespace Cert.KernelIdeal.Hand

open Cert.KernelIdeal Cert.KernelIdeal.Gen Cert.SSM Idealize.ShloMosaic Idealize.ShloMosaic.TcCoe Idealize.SL.Sem
  Idealize.ShloMosaic.StableHlo Idealize.ShloMosaic.ValueIdx

variable (m : (ℓ : Loc nD τ sig) → Buf (Elt Ideal) ℓ)

/-- The seven argument arrays at launch, as functions of an index. -/
abbrev arg0 (c : Dev nD) : S16384x2048.Idx → EReal := m ((c : Thread nD τ).loc main_arg0)
abbrev arg1 (c : Dev nD) : S16384x2048.Idx → EReal := m ((c : Thread nD τ).loc main_arg1)
abbrev arg2 (c : Dev nD) : S2048x2048.Idx → EReal := m ((c : Thread nD τ).loc main_arg2)
abbrev arg3 (c : Dev nD) : S1024x2048.Idx → EReal := m ((c : Thread nD τ).loc main_arg3)
abbrev arg4 (c : Dev nD) : S8192x1024.Idx → EReal := m ((c : Thread nD τ).loc main_arg4)
abbrev arg5 (c : Dev nD) : S2048x2048.Idx → EReal := m ((c : Thread nD τ).loc main_arg5)
abbrev arg6 (c : Dev nD) : S2048.Idx → EReal := m ((c : Thread nD τ).loc main_arg6)

/-- The printed index maps, decided over the grid's 128 points: the input, the previous state and the two results
    sit on block row `t`, every other window on block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-! ## Each input window's block, read off its array -/

/-- Window 0's block at point `t`, read at `x`, is its array at the index the block's offset and `x` add up to. -/
theorem iblk0_apply (c : Dev nD) (t : Fin cfg0.N) (x : S128x2048.Idx) (i : S16384x2048.Idx)
    (h0 : win0_0.index t (0 : Fin 2) * 128 + 1 * (x 0).val = (i 0).val)
    (h1 : win0_0.index t (1 : Fin 2) * 2048 + 1 * (x 1).val = (i 1).val) :
    (iblk m c 0 t : Vec Ideal S128x2048 .f32) x = V m c main_arg0 i := by
  unfold iblk
  rw [View.read_apply]
  show V m c main_arg0 _ = V m c main_arg0 _
  congr 1
  funext a
  apply Fin.ext
  match a with
  | ⟨0, _⟩ => exact h0
  | ⟨1, _⟩ => exact h1

/-- Window 1's block at point `t`, read at `x`, is its array at the index the block's offset and `x` add up to. -/
theorem iblk1_apply (c : Dev nD) (t : Fin cfg0.N) (x : S128x2048.Idx) (i : S16384x2048.Idx)
    (h0 : win0_1.index t (0 : Fin 2) * 128 + 1 * (x 0).val = (i 0).val)
    (h1 : win0_1.index t (1 : Fin 2) * 2048 + 1 * (x 1).val = (i 1).val) :
    (iblk m c 1 t : Vec Ideal S128x2048 .f32) x = V m c main_arg1 i := by
  unfold iblk
  rw [View.read_apply]
  show V m c main_arg1 _ = V m c main_arg1 _
  congr 1
  funext a
  apply Fin.ext
  match a with
  | ⟨0, _⟩ => exact h0
  | ⟨1, _⟩ => exact h1

/-- Window 2's block at point `t`, read at `x`, is its array at the index the block's offset and `x` add up to. -/
theorem iblk2_apply (c : Dev nD) (t : Fin cfg0.N) (x : S2048x2048.Idx) (i : S2048x2048.Idx)
    (h0 : win0_2.index t (0 : Fin 2) * 2048 + 1 * (x 0).val = (i 0).val)
    (h1 : win0_2.index t (1 : Fin 2) * 2048 + 1 * (x 1).val = (i 1).val) :
    (iblk m c 2 t : Vec Ideal S2048x2048 .bf16) x = V m c main_v1 i := by
  unfold iblk
  rw [View.read_apply]
  show V m c main_v1 _ = V m c main_v1 _
  congr 1
  funext a
  apply Fin.ext
  match a with
  | ⟨0, _⟩ => exact h0
  | ⟨1, _⟩ => exact h1

/-- Window 3's block at point `t`, read at `x`, is its array at the index the block's offset and `x` add up to. -/
theorem iblk3_apply (c : Dev nD) (t : Fin cfg0.N) (x : S2048x1024.Idx) (i : S2048x1024.Idx)
    (h0 : win0_3.index t (0 : Fin 2) * 2048 + 1 * (x 0).val = (i 0).val)
    (h1 : win0_3.index t (1 : Fin 2) * 1024 + 1 * (x 1).val = (i 1).val) :
    (iblk m c 3 t : Vec Ideal S2048x1024 .bf16) x = V m c main_v3 i := by
  unfold iblk
  rw [View.read_apply]
  show V m c main_v3 _ = V m c main_v3 _
  congr 1
  funext a
  apply Fin.ext
  match a with
  | ⟨0, _⟩ => exact h0
  | ⟨1, _⟩ => exact h1

/-- Window 4's block at point `t`, read at `x`, is its array at the index the block's offset and `x` add up to. -/
theorem iblk4_apply (c : Dev nD) (t : Fin cfg0.N) (x : S1024x2048.Idx) (i : S1024x2048.Idx)
    (h0 : win0_4.index t (0 : Fin 2) * 1024 + 1 * (x 0).val = (i 0).val)
    (h1 : win0_4.index t (1 : Fin 2) * 2048 + 1 * (x 1).val = (i 1).val) :
    (iblk m c 4 t : Vec Ideal S1024x2048 .bf16) x = V m c main_v9 i := by
  unfold iblk
  rw [View.read_apply]
  show V m c main_v9 _ = V m c main_v9 _
  congr 1
  funext a
  apply Fin.ext
  match a with
  | ⟨0, _⟩ => exact h0
  | ⟨1, _⟩ => exact h1

/-- Window 5's block at point `t`, read at `x`, is its array at the index the block's offset and `x` add up to. -/
theorem iblk5_apply (c : Dev nD) (t : Fin cfg0.N) (x : S1024x2048.Idx) (i : S1024x2048.Idx)
    (h0 : win0_5.index t (0 : Fin 2) * 1024 + 1 * (x 0).val = (i 0).val)
    (h1 : win0_5.index t (1 : Fin 2) * 2048 + 1 * (x 1).val = (i 1).val) :
    (iblk m c 5 t : Vec Ideal S1024x2048 .bf16) x = V m c main_v11 i := by
  unfold iblk
  rw [View.read_apply]
  show V m c main_v11 _ = V m c main_v11 _
  congr 1
  funext a
  apply Fin.ext
  match a with
  | ⟨0, _⟩ => exact h0
  | ⟨1, _⟩ => exact h1

/-- Window 6's block at point `t`, read at `x`, is its array at the index the block's offset and `x` add up to. -/
theorem iblk6_apply (c : Dev nD) (t : Fin cfg0.N) (x : S1024x2048.Idx) (i : S1024x2048.Idx)
    (h0 : win0_6.index t (0 : Fin 2) * 1024 + 1 * (x 0).val = (i 0).val)
    (h1 : win0_6.index t (1 : Fin 2) * 2048 + 1 * (x 1).val = (i 1).val) :
    (iblk m c 6 t : Vec Ideal S1024x2048 .bf16) x = V m c main_v13 i := by
  unfold iblk
  rw [View.read_apply]
  show V m c main_v13 _ = V m c main_v13 _
  congr 1
  funext a
  apply Fin.ext
  match a with
  | ⟨0, _⟩ => exact h0
  | ⟨1, _⟩ => exact h1

/-- Window 7's block at point `t`, read at `x`, is its array at the index the block's offset and `x` add up to. -/
theorem iblk7_apply (c : Dev nD) (t : Fin cfg0.N) (x : S1024x2048.Idx) (i : S1024x2048.Idx)
    (h0 : win0_7.index t (0 : Fin 2) * 1024 + 1 * (x 0).val = (i 0).val)
    (h1 : win0_7.index t (1 : Fin 2) * 2048 + 1 * (x 1).val = (i 1).val) :
    (iblk m c 7 t : Vec Ideal S1024x2048 .bf16) x = V m c main_v15 i := by
  unfold iblk
  rw [View.read_apply]
  show V m c main_v15 _ = V m c main_v15 _
  congr 1
  funext a
  apply Fin.ext
  match a with
  | ⟨0, _⟩ => exact h0
  | ⟨1, _⟩ => exact h1

/-- Window 8's block at point `t`, read at `x`, is its array at the index the block's offset and `x` add up to. -/
theorem iblk8_apply (c : Dev nD) (t : Fin cfg0.N) (x : S2048x2048.Idx) (i : S2048x2048.Idx)
    (h0 : win0_8.index t (0 : Fin 2) * 2048 + 1 * (x 0).val = (i 0).val)
    (h1 : win0_8.index t (1 : Fin 2) * 2048 + 1 * (x 1).val = (i 1).val) :
    (iblk m c 8 t : Vec Ideal S2048x2048 .bf16) x = V m c main_v17 i := by
  unfold iblk
  rw [View.read_apply]
  show V m c main_v17 _ = V m c main_v17 _
  congr 1
  funext a
  apply Fin.ext
  match a with
  | ⟨0, _⟩ => exact h0
  | ⟨1, _⟩ => exact h1

/-- Window 9's block at point `t`, read at `x`, is its array at the index the block's offset and `x` add up to. -/
theorem iblk9_apply (c : Dev nD) (t : Fin cfg0.N) (x : S1x2048.Idx) (i : S1x2048.Idx)
    (h0 : win0_9.index t (0 : Fin 2) * 1 + 1 * (x 0).val = (i 0).val)
    (h1 : win0_9.index t (1 : Fin 2) * 2048 + 1 * (x 1).val = (i 1).val) :
    (iblk m c 9 t : Vec Ideal S1x2048 .f32) x = V m c main_v18 i := by
  unfold iblk
  rw [View.read_apply]
  show V m c main_v18 _ = V m c main_v18 _
  congr 1
  funext a
  apply Fin.ext
  match a with
  | ⟨0, _⟩ => exact h0
  | ⟨1, _⟩ => exact h1

/-! ## The eight resident windows hold their whole arrays -/

/-- Window 2 holds its whole array at every point. -/
theorem iblk2_whole (c : Dev nD) (t : Fin cfg0.N) : (iblk m c 2 t : Vec Ideal S2048x2048 .bf16) = V m c main_v1 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext x
  exact iblk2_apply m c t x x (by rw [e2_0]; omega) (by rw [e2_1]; omega)

/-- Window 3 holds its whole array at every point. -/
theorem iblk3_whole (c : Dev nD) (t : Fin cfg0.N) : (iblk m c 3 t : Vec Ideal S2048x1024 .bf16) = V m c main_v3 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext x
  exact iblk3_apply m c t x x (by rw [e3_0]; omega) (by rw [e3_1]; omega)

/-- Window 4 holds its whole array at every point. -/
theorem iblk4_whole (c : Dev nD) (t : Fin cfg0.N) : (iblk m c 4 t : Vec Ideal S1024x2048 .bf16) = V m c main_v9 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext x
  exact iblk4_apply m c t x x (by rw [e4_0]; omega) (by rw [e4_1]; omega)

/-- Window 5 holds its whole array at every point. -/
theorem iblk5_whole (c : Dev nD) (t : Fin cfg0.N) : (iblk m c 5 t : Vec Ideal S1024x2048 .bf16) = V m c main_v11 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext x
  exact iblk5_apply m c t x x (by rw [e5_0]; omega) (by rw [e5_1]; omega)

/-- Window 6 holds its whole array at every point. -/
theorem iblk6_whole (c : Dev nD) (t : Fin cfg0.N) : (iblk m c 6 t : Vec Ideal S1024x2048 .bf16) = V m c main_v13 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext x
  exact iblk6_apply m c t x x (by rw [e6_0]; omega) (by rw [e6_1]; omega)

/-- Window 7 holds its whole array at every point. -/
theorem iblk7_whole (c : Dev nD) (t : Fin cfg0.N) : (iblk m c 7 t : Vec Ideal S1024x2048 .bf16) = V m c main_v15 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext x
  exact iblk7_apply m c t x x (by rw [e7_0]; omega) (by rw [e7_1]; omega)

/-- Window 8 holds its whole array at every point. -/
theorem iblk8_whole (c : Dev nD) (t : Fin cfg0.N) : (iblk m c 8 t : Vec Ideal S2048x2048 .bf16) = V m c main_v17 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext x
  exact iblk8_apply m c t x x (by rw [e8_0]; omega) (by rw [e8_1]; omega)

/-- Window 9 holds its whole array at every point. -/
theorem iblk9_whole (c : Dev nD) (t : Fin cfg0.N) : (iblk m c 9 t : Vec Ideal S1x2048 .f32) = V m c main_v18 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext x
  exact iblk9_apply m c t x x (by rw [e9_0]; omega) (by rw [e9_1]; omega)

/-! ## What the host wrote into the resident windows' arrays -/

/-- Window 2's array: the input projection's weight, transposed. -/
theorem win2_eq (c : Dev nD) : tr22 (V m c main_v1) = mat22 (arg2 m c) := by
  have e : (V m c main_v1 : S2048x2048.Idx → EReal) = truncf (F := Ideal) .bf16 (transpose S2048x2048 [1, 0] (arg2 m c)
      transposes_S2048x2048_S2048x2048_1_0) bitsLt_bf16_f32 := by
    dsimp only [Gen.V, Gen.hostOps0]; after_results <;> rfl
  funext s k
  show V m c main_v1 (ix2 k s) = arg2 m c (ix2 s k)
  refine (congrFun e (ix2 k s)).trans ?_
  exact transpose_apply [1, 0] (arg2 m c) transposes_S2048x2048_S2048x2048_1_0 (ix2 k s) (ix2 s k) (fun b => match b with
    | ⟨0, _⟩ => rfl
    | ⟨1, _⟩ => rfl)

/-- Window 3's array: the selector's hidden weight, transposed. -/
theorem win3_eq (c : Dev nD) : tr21 (V m c main_v3) = mat12 (arg3 m c) := by
  have e : (V m c main_v3 : S2048x1024.Idx → EReal) = truncf (F := Ideal) .bf16 (transpose S2048x1024 [1, 0] (arg3 m c)
      transposes_S1024x2048_S2048x1024_1_0) bitsLt_bf16_f32 := by
    dsimp only [Gen.V, Gen.hostOps0]; after_results <;> rfl
  funext h k
  show V m c main_v3 (ix2 k h) = arg3 m c (ix2 h k)
  refine (congrFun e (ix2 k h)).trans ?_
  exact transpose_apply [1, 0] (arg3 m c) transposes_S1024x2048_S2048x1024_1_0 (ix2 k h) (ix2 h k) (fun b => match b with
    | ⟨0, _⟩ => rfl
    | ⟨1, _⟩ => rfl)

/-- Window 4's array: rows 0 … 2047 of the stacked gate weight, transposed. -/
theorem win4_eq (c : Dev nD) : tr12 (V m c main_v9) = bandA (arg4 m c) := by
  have e : (V m c main_v9 : S1024x2048.Idx → EReal) = truncf (F := Ideal) .bf16 (transpose S1024x2048 [1, 0]
      (extractStridedSlice S2048x1024 ![0, 0] (arg4 m c) slices_S8192x1024_S2048x1024_0_0)
      transposes_S2048x1024_S1024x2048_1_0) bitsLt_bf16_f32 := by
    dsimp only [Gen.V, Gen.hostOps0]; after_results <;> rfl
  funext s h
  show V m c main_v9 (ix2 h s) = arg4 m c (ix2 (⟨0 + s.val, by have := s.isLt; omega⟩ : Fin 8192) h)
  refine (congrFun e (ix2 h s)).trans ?_
  refine (transpose_apply [1, 0] (extractStridedSlice S2048x1024 ![0, 0] (arg4 m c) slices_S8192x1024_S2048x1024_0_0)
    transposes_S2048x1024_S1024x2048_1_0 (ix2 h s) (ix2 s h) (fun b => match b with
      | ⟨0, _⟩ => rfl
      | ⟨1, _⟩ => rfl)).trans ?_
  exact extractStridedSlice_apply ![0, 0] (arg4 m c) slices_S8192x1024_S2048x1024_0_0 (ix2 s h)
    (ix2 (⟨0 + s.val, by have := s.isLt; omega⟩ : Fin 8192) h) (fun a => match a with
      | ⟨0, _⟩ => rfl
      | ⟨1, _⟩ => by show h.val = 0 + h.val; omega)

/-- Window 5's array: rows 2048 … 4095 of the stacked gate weight, transposed. -/
theorem win5_eq (c : Dev nD) : tr12 (V m c main_v11) = bandB (arg4 m c) := by
  have e : (V m c main_v11 : S1024x2048.Idx → EReal) = truncf (F := Ideal) .bf16 (transpose S1024x2048 [1, 0]
      (extractStridedSlice S2048x1024 ![2048, 0] (arg4 m c) slices_S8192x1024_S2048x1024_2048_0)
      transposes_S2048x1024_S1024x2048_1_0) bitsLt_bf16_f32 := by
    dsimp only [Gen.V, Gen.hostOps0]; after_results <;> rfl
  funext s h
  show V m c main_v11 (ix2 h s) = arg4 m c (ix2 (⟨2048 + s.val, by have := s.isLt; omega⟩ : Fin 8192) h)
  refine (congrFun e (ix2 h s)).trans ?_
  refine (transpose_apply [1, 0] (extractStridedSlice S2048x1024 ![2048, 0] (arg4 m c) slices_S8192x1024_S2048x1024_2048_0)
    transposes_S2048x1024_S1024x2048_1_0 (ix2 h s) (ix2 s h) (fun b => match b with
      | ⟨0, _⟩ => rfl
      | ⟨1, _⟩ => rfl)).trans ?_
  exact extractStridedSlice_apply ![2048, 0] (arg4 m c) slices_S8192x1024_S2048x1024_2048_0 (ix2 s h)
    (ix2 (⟨2048 + s.val, by have := s.isLt; omega⟩ : Fin 8192) h) (fun a => match a with
      | ⟨0, _⟩ => rfl
      | ⟨1, _⟩ => by show h.val = 0 + h.val; omega)

/-- Window 6's array: rows 4096 … 6143 of the stacked gate weight, transposed. -/
theorem win6_eq (c : Dev nD) : tr12 (V m c main_v13) = bandC (arg4 m c) := by
  have e : (V m c main_v13 : S1024x2048.Idx → EReal) = truncf (F := Ideal) .bf16 (transpose S1024x2048 [1, 0]
      (extractStridedSlice S2048x1024 ![4096, 0] (arg4 m c) slices_S8192x1024_S2048x1024_4096_0)
      transposes_S2048x1024_S1024x2048_1_0) bitsLt_bf16_f32 := by
    dsimp only [Gen.V, Gen.hostOps0]; after_results <;> rfl
  funext s h
  show V m c main_v13 (ix2 h s) = arg4 m c (ix2 (⟨4096 + s.val, by have := s.isLt; omega⟩ : Fin 8192) h)
  refine (congrFun e (ix2 h s)).trans ?_
  refine (transpose_apply [1, 0] (extractStridedSlice S2048x1024 ![4096, 0] (arg4 m c) slices_S8192x1024_S2048x1024_4096_0)
    transposes_S2048x1024_S1024x2048_1_0 (ix2 h s) (ix2 s h) (fun b => match b with
      | ⟨0, _⟩ => rfl
      | ⟨1, _⟩ => rfl)).trans ?_
  exact extractStridedSlice_apply ![4096, 0] (arg4 m c) slices_S8192x1024_S2048x1024_4096_0 (ix2 s h)
    (ix2 (⟨4096 + s.val, by have := s.isLt; omega⟩ : Fin 8192) h) (fun a => match a with
      | ⟨0, _⟩ => rfl
      | ⟨1, _⟩ => by show h.val = 0 + h.val; omega)

/-- Window 7's array: rows 6144 … 8191 of the stacked gate weight, transposed. -/
theorem win7_eq (c : Dev nD) : tr12 (V m c main_v15) = bandD (arg4 m c) := by
  have e : (V m c main_v15 : S1024x2048.Idx → EReal) = truncf (F := Ideal) .bf16 (transpose S1024x2048 [1, 0]
      (extractStridedSlice S2048x1024 ![6144, 0] (arg4 m c) slices_S8192x1024_S2048x1024_6144_0)
      transposes_S2048x1024_S1024x2048_1_0) bitsLt_bf16_f32 := by
    dsimp only [Gen.V, Gen.hostOps0]; after_results <;> rfl
  funext s h
  show V m c main_v15 (ix2 h s) = arg4 m c (ix2 (⟨6144 + s.val, by have := s.isLt; omega⟩ : Fin 8192) h)
  refine (congrFun e (ix2 h s)).trans ?_
  refine (transpose_apply [1, 0] (extractStridedSlice S2048x1024 ![6144, 0] (arg4 m c) slices_S8192x1024_S2048x1024_6144_0)
    transposes_S2048x1024_S1024x2048_1_0 (ix2 h s) (ix2 s h) (fun b => match b with
      | ⟨0, _⟩ => rfl
      | ⟨1, _⟩ => rfl)).trans ?_
  exact extractStridedSlice_apply ![6144, 0] (arg4 m c) slices_S8192x1024_S2048x1024_6144_0 (ix2 s h)
    (ix2 (⟨6144 + s.val, by have := s.isLt; omega⟩ : Fin 8192) h) (fun a => match a with
      | ⟨0, _⟩ => rfl
      | ⟨1, _⟩ => by show h.val = 0 + h.val; omega)

/-- Window 8's array: the output projection's weight, transposed. -/
theorem win8_eq (c : Dev nD) : tr22 (V m c main_v17) = mat22 (arg5 m c) := by
  have e : (V m c main_v17 : S2048x2048.Idx → EReal) = truncf (F := Ideal) .bf16 (transpose S2048x2048 [1, 0] (arg5 m c)
      transposes_S2048x2048_S2048x2048_1_0) bitsLt_bf16_f32 := by
    dsimp only [Gen.V, Gen.hostOps0]; after_results <;> rfl
  funext j s
  show V m c main_v17 (ix2 s j) = arg5 m c (ix2 j s)
  refine (congrFun e (ix2 s j)).trans ?_
  exact transpose_apply [1, 0] (arg5 m c) transposes_S2048x2048_S2048x2048_1_0 (ix2 s j) (ix2 j s) (fun b => match b with
    | ⟨0, _⟩ => rfl
    | ⟨1, _⟩ => rfl)

/-- Window 9's array: the skip vector as one row. -/
theorem win9_eq (c : Dev nD) : row1 (V m c main_v18) = vec1 (arg6 m c) := by
  have e : (V m c main_v18 : S1x2048.Idx → EReal) = shapeCast S1x2048 (arg6 m c) shapeCasts_S2048_S1x2048 := by
    dsimp only [Gen.V, Gen.hostOps0]; after_results <;> rfl
  funext s
  show V m c main_v18 (ix2 (0 : Fin 1) s) = arg6 m c (ix1 s)
  refine (congrFun e (ix2 (0 : Fin 1) s)).trans ?_
  refine (shapeCast_addUnit_apply ![2048] (arg6 m c) shapeCasts_S2048_S1x2048 (ix2 (0 : Fin 1) s)).trans ?_
  exact congrArg (arg6 m c) (funext fun a => by
    match a with
    | ⟨0, _⟩ => rfl)

/-! ## The body's inputs at point `t`, as the row specification's arguments -/

/-- Row `r` of the input's block at point `t` is row `128·t + r` of the input. -/
theorem in_row (c : Dev nD) (t : Fin cfg0.N) (r : Fin 128) (p : Fin 16384) (hp : p.val = t.val * 128 + r.val) :
    blkRow (iblk m c 0 t) r = rowOf (arg0 m c) p := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext k
  show (iblk m c 0 t : Vec Ideal S128x2048 .f32) (ix2 r k) = arg0 m c (ix2 p k)
  refine (iblk0_apply m c t (ix2 r k) (ix2 p k) ?_ ?_).trans (congrFun (V_main_arg0 m c) _)
  · show win0_0.index t (0 : Fin 2) * 128 + 1 * r.val = p.val
    rw [e0_0, hp]; omega
  · show win0_0.index t (1 : Fin 2) * 2048 + 1 * k.val = k.val
    rw [e0_1]; omega

/-- Row `r` of the previous state's block at point `t` is row `128·t + r` of the previous state. -/
theorem st_row (c : Dev nD) (t : Fin cfg0.N) (r : Fin 128) (p : Fin 16384) (hp : p.val = t.val * 128 + r.val) :
    blkRow (iblk m c 1 t) r = rowOf (arg1 m c) p := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  funext k
  show (iblk m c 1 t : Vec Ideal S128x2048 .f32) (ix2 r k) = arg1 m c (ix2 p k)
  refine (iblk1_apply m c t (ix2 r k) (ix2 p k) ?_ ?_).trans (congrFun (V_main_arg1 m c) _)
  · show win0_1.index t (0 : Fin 2) * 128 + 1 * r.val = p.val
    rw [e1_0, hp]; omega
  · show win0_1.index t (1 : Fin 2) * 2048 + 1 * k.val = k.val
    rw [e1_1]; omega

/-- The seven weights the body reads at any point, as the specification's. -/
theorem w_in (c : Dev nD) (t : Fin cfg0.N) : tr22 (iblk m c 2 t) = mat22 (arg2 m c) :=
  (congrArg tr22 (iblk2_whole m c t)).trans (win2_eq m c)
theorem w_sel (c : Dev nD) (t : Fin cfg0.N) : tr21 (iblk m c 3 t) = mat12 (arg3 m c) :=
  (congrArg tr21 (iblk3_whole m c t)).trans (win3_eq m c)
theorem w_a (c : Dev nD) (t : Fin cfg0.N) : tr12 (iblk m c 4 t) = bandA (arg4 m c) :=
  (congrArg tr12 (iblk4_whole m c t)).trans (win4_eq m c)
theorem w_b (c : Dev nD) (t : Fin cfg0.N) : tr12 (iblk m c 5 t) = bandB (arg4 m c) :=
  (congrArg tr12 (iblk5_whole m c t)).trans (win5_eq m c)
theorem w_c (c : Dev nD) (t : Fin cfg0.N) : tr12 (iblk m c 6 t) = bandC (arg4 m c) :=
  (congrArg tr12 (iblk6_whole m c t)).trans (win6_eq m c)
theorem w_d (c : Dev nD) (t : Fin cfg0.N) : tr12 (iblk m c 7 t) = bandD (arg4 m c) :=
  (congrArg tr12 (iblk7_whole m c t)).trans (win7_eq m c)
theorem w_out (c : Dev nD) (t : Fin cfg0.N) : tr22 (iblk m c 8 t) = mat22 (arg5 m c) :=
  (congrArg tr22 (iblk8_whole m c t)).trans (win8_eq m c)
theorem w_skip (c : Dev nD) (t : Fin cfg0.N) : row1 (iblk m c 9 t) = vec1 (arg6 m c) :=
  (congrArg row1 (iblk9_whole m c t)).trans (win9_eq m c)

end Cert.KernelIdeal.Hand

end
-- ==== Proof.KernelValue.lean ====
/-
  The kernel's two result arrays after its run.

  At grid point `t` the body writes the [128, 2048] blocks of the output and of the new state for rows
  128·t … 128·t + 127, each entry the row specification of that row of the input and of the previous state and of the
  weights as the host laid them out: so what the point writes back is block row `t` of the specification's array.
  The 128 block rows cover the 16384 rows, so after the run each result array is the specification's array.
-/
import proofs.«138219_j55301998903668_1_alg».proof.Proof.Gen.KernelIdeal.Value
import proofs.«138219_j55301998903668_1_alg».proof.Proof.KernelWindows

noncomputable section

namespace Cert.KernelIdeal.Hand

open Cert.KernelIdeal Cert.KernelIdeal.Gen Cert.SSM Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One entry of a block, from any blocks that hold the right rows and weights -/

/-- The new state: entry (r, s) of the block is entry (p, s) of the specification's array, when row `r` of the two
    row blocks is row `p` of the arrays and the weights are the arrays' as the specification reads them. -/
theorem h_point (A0 A1 : S16384x2048.Idx → EReal) (A2 : S2048x2048.Idx → EReal) (A3 : S1024x2048.Idx → EReal)
    (A4 : S8192x1024.Idx → EReal)
    (x0 x1 : FVec Ideal S128x2048 .f32) (x2 : FVec Ideal S2048x2048 .bf16) (x3 : FVec Ideal S2048x1024 .bf16)
    (x4 x5 : FVec Ideal S1024x2048 .bf16) (r : Fin 128) (s : Fin 2048) (p : Fin 16384)
    (h0 : blkRow x0 r = rowOf A0 p) (h1 : blkRow x1 r = rowOf A1 p) (h2 : tr22 x2 = mat22 A2)
    (h3 : tr21 x3 = mat12 A3) (h4 : tr12 x4 = bandA A4) (h5 : tr12 x5 = bandB A4) :
    k0_pay6 (F := Ideal) x0 x1 x2 x3 x4 x5 (ix2 r s) = Gh A0 A1 A2 A3 A4 (ix2 p s) := by
  rw [h_blk, h0, h1, h2, h3, h4, h5]
  rfl

/-- The output, likewise. -/
theorem out_point (A0 A1 : S16384x2048.Idx → EReal) (A2 : S2048x2048.Idx → EReal) (A3 : S1024x2048.Idx → EReal)
    (A4 : S8192x1024.Idx → EReal) (A5 : S2048x2048.Idx → EReal) (A6 : S2048.Idx → EReal)
    (x0 x1 : FVec Ideal S128x2048 .f32) (x2 : FVec Ideal S2048x2048 .bf16) (x3 : FVec Ideal S2048x1024 .bf16)
    (x4 x5 x6 x7 : FVec Ideal S1024x2048 .bf16) (x8 : FVec Ideal S2048x2048 .bf16) (x9 : FVec Ideal S1x2048 .f32)
    (r : Fin 128) (j : Fin 2048) (p : Fin 16384)
    (h0 : blkRow x0 r = rowOf A0 p) (h1 : blkRow x1 r = rowOf A1 p) (h2 : tr22 x2 = mat22 A2)
    (h3 : tr21 x3 = mat12 A3) (h4 : tr12 x4 = bandA A4) (h5 : tr12 x5 = bandB A4) (h6 : tr12 x6 = bandC A4)
    (h7 : tr12 x7 = bandD A4) (h8 : tr22 x8 = mat22 A5) (h9 : row1 x9 = vec1 A6) :
    k0_pay1 (F := Ideal) (k0_pay3 (F := Ideal) x0 x2) (k0_pay5 (F := Ideal) x0 x3 x7)
        (k0_pay7 (F := Ideal) x0 x1 x2 x3 x4 x5 x6) (k0_pay8 (F := Ideal) x9) x8 (ix2 r j)
      = Gout A0 A1 A2 A3 A4 A5 A6 (ix2 p j) := by
  rw [out_blk, h0, h1, h2, h3, h4, h5, h6, h7, h8, h9]
  rfl

/-! ## What each point writes back -/

/-- Point `t` writes back block row `t` of the specification's new-state array. -/
theorem flushed11_eq (c : Dev nD) (t : Fin cfg0.N) :
    (dats m 0 c).flushed 11 t = ((cfg0.win 11).blk t).view.read (Elt Ideal) (Gh (arg0 m c) (arg1 m c) (arg2 m c) (arg3 m c) (arg4 m c)) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  have hN : cfg0.N = 128 := N_0
  have ht : t.val < 128 := lt_of_lt_of_eq t.isLt hN
  rw [Value.flushed11]
  unfold out0_11
  rw [View.canon_unit_zero hz]
  simp only [View.ld_unit_zero (S := S128x2048) hz, View.ld_unit_zero (S := S2048x2048) hz,
    View.ld_unit_zero (S := S2048x1024) hz, View.ld_unit_zero (S := S1024x2048) hz]
  funext y
  obtain ⟨r, s, rfl⟩ : ∃ (r : Fin 128) (s : Fin 2048), y = ix2 r s := ⟨y 0, y 1, eq_ix2 y⟩
  have hp : t.val * 128 + r.val < 16384 := by have := r.isLt; omega
  show k0_pay6 (F := Ideal) (iblk m c 0 t) (iblk m c 1 t) (iblk m c 2 t) (iblk m c 3 t) (iblk m c 4 t) (iblk m c 5 t) (ix2 r s)
    = Gh (arg0 m c) (arg1 m c) (arg2 m c) (arg3 m c) (arg4 m c) (((cfg0.win 11).blk t).view.emb (ix2 r s))
  refine (h_point (arg0 m c) (arg1 m c) (arg2 m c) (arg3 m c) (arg4 m c) (iblk m c 0 t) (iblk m c 1 t) (iblk m c 2 t) (iblk m c 3 t) (iblk m c 4 t) (iblk m c 5 t) r s ⟨t.val * 128 + r.val, hp⟩
    (in_row m c t r _ rfl) (st_row m c t r _ rfl) (w_in m c t) (w_sel m c t) (w_a m c t) (w_b m c t)).trans ?_
  refine congrArg (Gh (arg0 m c) (arg1 m c) (arg2 m c) (arg3 m c) (arg4 m c)) (funext fun a => Fin.ext ?_)
  match a with
  | ⟨0, _⟩ => show t.val * 128 + r.val = win0_11.index t (0 : Fin 2) * 128 + 1 * r.val; rw [e11_0]; omega
  | ⟨1, _⟩ => show s.val = win0_11.index t (1 : Fin 2) * 2048 + 1 * s.val; rw [e11_1]; omega

/-- Point `t` writes back block row `t` of the specification's output array. -/
theorem flushed10_eq (c : Dev nD) (t : Fin cfg0.N) :
    (dats m 0 c).flushed 10 t = ((cfg0.win 10).blk t).view.read (Elt Ideal) (Gout (arg0 m c) (arg1 m c) (arg2 m c) (arg3 m c) (arg4 m c) (arg5 m c) (arg6 m c)) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  have hN : cfg0.N = 128 := N_0
  have ht : t.val < 128 := lt_of_lt_of_eq t.isLt hN
  rw [Value.flushed10]
  unfold out0_10
  rw [View.canon_unit_zero hz]
  simp only [View.ld_unit_zero (S := S128x2048) hz, View.ld_unit_zero (S := S2048x2048) hz,
    View.ld_unit_zero (S := S2048x1024) hz, View.ld_unit_zero (S := S1024x2048) hz, View.ld_unit_zero (S := S1x2048) hz]
  funext y
  obtain ⟨r, j, rfl⟩ : ∃ (r : Fin 128) (j : Fin 2048), y = ix2 r j := ⟨y 0, y 1, eq_ix2 y⟩
  have hp : t.val * 128 + r.val < 16384 := by have := r.isLt; omega
  show k0_pay1 (F := Ideal) (k0_pay3 (F := Ideal) (iblk m c 0 t) (iblk m c 2 t))
      (k0_pay5 (F := Ideal) (iblk m c 0 t) (iblk m c 3 t) (iblk m c 7 t))
      (k0_pay7 (F := Ideal) (iblk m c 0 t) (iblk m c 1 t) (iblk m c 2 t) (iblk m c 3 t) (iblk m c 4 t) (iblk m c 5 t) (iblk m c 6 t)) (k0_pay8 (F := Ideal) (iblk m c 9 t)) (iblk m c 8 t) (ix2 r j)
    = Gout (arg0 m c) (arg1 m c) (arg2 m c) (arg3 m c) (arg4 m c) (arg5 m c) (arg6 m c) (((cfg0.win 10).blk t).view.emb (ix2 r j))
  refine (out_point (arg0 m c) (arg1 m c) (arg2 m c) (arg3 m c) (arg4 m c) (arg5 m c) (arg6 m c) (iblk m c 0 t) (iblk m c 1 t) (iblk m c 2 t) (iblk m c 3 t) (iblk m c 4 t) (iblk m c 5 t) (iblk m c 6 t) (iblk m c 7 t) (iblk m c 8 t) (iblk m c 9 t) r j ⟨t.val * 128 + r.val, hp⟩
    (in_row m c t r _ rfl) (st_row m c t r _ rfl) (w_in m c t) (w_sel m c t) (w_a m c t) (w_b m c t) (w_c m c t)
    (w_d m c t) (w_out m c t) (w_skip m c t)).trans ?_
  refine congrArg (Gout (arg0 m c) (arg1 m c) (arg2 m c) (arg3 m c) (arg4 m c) (arg5 m c) (arg6 m c)) (funext fun a => Fin.ext ?_)
  match a with
  | ⟨0, _⟩ => show t.val * 128 + r.val = win0_10.index t (0 : Fin 2) * 128 + 1 * r.val; rw [e10_0]; omega
  | ⟨1, _⟩ => show j.val = win0_10.index t (1 : Fin 2) * 2048 + 1 * j.val; rw [e10_1]; omega

/-! ## The blocks cover the arrays -/

/-- An index of the array lies in point `t`'s block of window 10 iff each coordinate lies in the block's range. -/
theorem mem_blk10 (t : Fin cfg0.N) (i : S16384x2048.Idx) :
    i ∈ ((cfg0.win 10).blk t).view.set ↔ ∀ a : Fin 2, win0_10.index t a * S128x2048.size a ≤ (i a).val
      ∧ (i a).val < win0_10.index t a * S128x2048.size a + S128x2048.size a := by
  show i ∈ ((View.whole main_v19_0).slice (win0_10.rect t)).set ↔ _
  rw [View.set_slice_whole, Rect.mem_set_unit]
  exact Iff.rfl

/-- Every index of the array lies in some point's block: row `p` in the block of point `p / 128`. -/
theorem cover10 (i : S16384x2048.Idx) :
    ∃ t : Fin cfg0.N, (cfg0.win 10).flush t = true ∧ i ∈ ((cfg0.win 10).blk t).view.set := by
  have hi0 : (i 0).val < 16384 := (i 0).isLt
  have hi1 : (i 1).val < 2048 := (i 1).isLt
  have hN : cfg0.N = 128 := N_0
  obtain ⟨t, ht⟩ : ∃ t : Fin cfg0.N, t.val = (i 0).val / 128 := ⟨⟨(i 0).val / 128, by rw [hN]; omega⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  refine ⟨t, flush0_10 t, ?_⟩
  rw [mem_blk10]
  intro a
  match a with
  | ⟨0, _⟩ =>
    show win0_10.index t (0 : Fin 2) * 128 ≤ (i 0).val ∧ (i 0).val < win0_10.index t (0 : Fin 2) * 128 + 128
    rw [e10_0, ht]; omega
  | ⟨1, _⟩ =>
    show win0_10.index t (1 : Fin 2) * 2048 ≤ (i 1).val ∧ (i 1).val < win0_10.index t (1 : Fin 2) * 2048 + 2048
    rw [e10_1]; omega

/-- An index of the array lies in point `t`'s block of window 11 iff each coordinate lies in the block's range. -/
theorem mem_blk11 (t : Fin cfg0.N) (i : S16384x2048.Idx) :
    i ∈ ((cfg0.win 11).blk t).view.set ↔ ∀ a : Fin 2, win0_11.index t a * S128x2048.size a ≤ (i a).val
      ∧ (i a).val < win0_11.index t a * S128x2048.size a + S128x2048.size a := by
  show i ∈ ((View.whole main_v19_1).slice (win0_11.rect t)).set ↔ _
  rw [View.set_slice_whole, Rect.mem_set_unit]
  exact Iff.rfl

/-- Every index of the array lies in some point's block: row `p` in the block of point `p / 128`. -/
theorem cover11 (i : S16384x2048.Idx) :
    ∃ t : Fin cfg0.N, (cfg0.win 11).flush t = true ∧ i ∈ ((cfg0.win 11).blk t).view.set := by
  have hi0 : (i 0).val < 16384 := (i 0).isLt
  have hi1 : (i 1).val < 2048 := (i 1).isLt
  have hN : cfg0.N = 128 := N_0
  obtain ⟨t, ht⟩ : ∃ t : Fin cfg0.N, t.val = (i 0).val / 128 := ⟨⟨(i 0).val / 128, by rw [hN]; omega⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1⟩ := idx_facts t
  refine ⟨t, flush0_11 t, ?_⟩
  rw [mem_blk11]
  intro a
  match a with
  | ⟨0, _⟩ =>
    show win0_11.index t (0 : Fin 2) * 128 ≤ (i 0).val ∧ (i 0).val < win0_11.index t (0 : Fin 2) * 128 + 128
    rw [e11_0, ht]; omega
  | ⟨1, _⟩ =>
    show win0_11.index t (1 : Fin 2) * 2048 ≤ (i 1).val ∧ (i 1).val < win0_11.index t (1 : Fin 2) * 2048 + 2048
    rw [e11_1]; omega

/-! ## The arrays after the run -/

/-- The output array after the run is the specification's. -/
theorem final10 (c : Dev nD) : (dats m 0 c).arrAt 10 cfg0.N = Gout (arg0 m c) (arg1 m c) (arg2 m c) (arg3 m c) (arg4 m c) (arg5 m c) (arg6 m c) :=
  (dats m 0 c).arrAt_eq_of_cover 10 (Gout (arg0 m c) (arg1 m c) (arg2 m c) (arg3 m c) (arg4 m c) (arg5 m c) (arg6 m c)) (fun t _ => flushed10_eq m c t) cover10

/-- The new-state array after the run is the specification's. -/
theorem final11 (c : Dev nD) : (dats m 0 c).arrAt 11 cfg0.N = Gh (arg0 m c) (arg1 m c) (arg2 m c) (arg3 m c) (arg4 m c) :=
  (dats m 0 c).arrAt_eq_of_cover 11 (Gh (arg0 m c) (arg1 m c) (arg2 m c) (arg3 m c) (arg4 m c)) (fun t _ => flushed11_eq m c t) cover11

/-- Every weakly fair execution of the kernel's program terminates with the two result arrays at the
    specification's arrays of the arguments, and the arguments unchanged. -/
theorem run : θ_run defs (onTc (τ := τ) (main (F := Ideal))) ⟨m, fun _ => 0, ρ⟩ fun r => ∀ c : Dev nD,
      r.2.mem ((c : Thread nD τ).loc main_v19_0) = Gout (arg0 m c) (arg1 m c) (arg2 m c) (arg3 m c) (arg4 m c) (arg5 m c) (arg6 m c)
      ∧ r.2.mem ((c : Thread nD τ).loc main_v19_1) = Gh (arg0 m c) (arg1 m c) (arg2 m c) (arg3 m c) (arg4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final10 m c), (h c).2.1.trans (final11 m c), (h c).2.2⟩)
    (Cert.KernelIdeal.Value.run_blocks m ρ)

end Cert.KernelIdeal.Hand

end
-- ==== Proof.lean ====
/-
  A selective state-space step, computed by a blocked accelerator kernel and by plain array code: equal results
  over the extended reals.

  Both programs take a batch of 16384 input rows and previous-state rows and compute, for every row, the new state
      h' = σ(g_A) ⊙ h + tanh(g_B) ⊙ u
  and the output
      out = (tanh(g_C) ⊙ h' + (d ⊙ σ(g_D)) ⊙ u) · W_outᵀ,
  where u = x · W_inᵀ, the hidden row is silu(x · W_selᵀ), and g_A, g_B, g_C, g_D are the hidden row times the four
  row bands of one stacked weight (σ the logistic function, ⊙ the entrywise product). The kernel works on 128 rows
  at a time against weights the host has already transposed and cut into bands; the reference transposes each weight
  as it goes and cuts the four gates out of one product by columns. Over the extended reals a change of float format
  is the identity, a matrix product accumulated from zero is the plain sum over the contracted coordinate, and the
  logistic function is 1 / (1 + e^(-z)) whether it is one operation or spelt out; the two programs then apply the
  same products and sums in the same grouping, so their results agree entry by entry and no entry needs to be
  finite. Both are shown equal to one specification, stated row by row (Proof/RowSpec.lean): the reference stage by
  stage (Proof/RefIsSpec.lean), the kernel entry by entry of a block (Proof/KernelMatmul.lean, Proof/KernelRow.lean),
  block by block of the arrays the host prepared (Proof/KernelWindows.lean), and then for the whole arrays, whose
  128 row blocks cover them (Proof/KernelValue.lean).

  The three programs terminate without a fault and leave their arguments unchanged: the kernel's two readings by
  their generated frames, the reference by its generated run. The idealized kernel is the kernel's own text read over
  the extended reals, with no operation rewritten, so nothing further is asked of that pair.
-/
import proofs.«138219_j55301998903668_1_alg».proof.Defs
import proofs.«138219_j55301998903668_1_alg».proof.Proof.Gen.Kernel
import proofs.«138219_j55301998903668_1_alg».proof.Proof.Gen.Kernel.Skeleton
import proofs.«138219_j55301998903668_1_alg».proof.Proof.Gen.Kernel.Launch
import proofs.«138219_j55301998903668_1_alg».proof.Proof.Gen.Kernel.Points
import proofs.«138219_j55301998903668_1_alg».proof.Proof.Gen.Kernel.Frame
import proofs.«138219_j55301998903668_1_alg».proof.Proof.Gen.KernelIdeal
import proofs.«138219_j55301998903668_1_alg».proof.Proof.Gen.KernelIdeal.Skeleton
import proofs.«138219_j55301998903668_1_alg».proof.Proof.Gen.KernelIdeal.Launch
import proofs.«138219_j55301998903668_1_alg».proof.Proof.Gen.KernelIdeal.Points
import proofs.«138219_j55301998903668_1_alg».proof.Proof.Gen.KernelIdeal.Frame
import proofs.«138219_j55301998903668_1_alg».proof.Proof.Gen.ReferenceIdeal
import proofs.«138219_j55301998903668_1_alg».proof.Proof.Gen.Pre_finite_inputs
import proofs.«138219_j55301998903668_1_alg».proof.Proof.Gen.KernelIdeal.Value
import proofs.«138219_j55301998903668_1_alg».proof.Proof.Gen.ReferenceIdeal.Run
import proofs.«138219_j55301998903668_1_alg».proof.Proof.Gen.ReferenceIdeal.Read
import proofs.«138219_j55301998903668_1_alg».proof.Proof.RefIsSpec
import proofs.«138219_j55301998903668_1_alg».proof.Proof.KernelValue
import Idealize.ShloMosaic.Adequacy
import Idealize.ShloMosaic.Init

noncomputable section

namespace Cert.Proof

open Idealize.ShloMosaic Idealize.SL.Sem Cert.Kernel

/-- The kernel as printed, read over machine words: it runs, and its arguments end unchanged. -/
theorem frame_kernel : Cert.frame_Kernel := fun m ρ _ => Cert.Kernel.Gen.frame m ρ

/-- The same text read over the extended reals. -/
theorem frame_kernel_ideal : Cert.frame_KernelIdeal := fun m ρ _ => Cert.KernelIdeal.Gen.frame m ρ

/-- The reference: its run, with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- No operation of the kernel was rewritten to idealize it. -/
theorem preserves : Cert.preserves_Kernel_KernelIdeal := trivial

/-- From memories that agree on the seven arguments, the kernel's output and new-state arrays and the reference's
    are the specification's arrays of those arguments. -/
theorem algebraic : Cert.algebraic_KernelIdeal_ReferenceIdeal := by
  intro m ρ m' ρ' _ hagree
  refine ⟨fun c => Cert.SSM.Gout (Cert.KernelIdeal.Hand.arg0 m c) (Cert.KernelIdeal.Hand.arg1 m c) (Cert.KernelIdeal.Hand.arg2 m c) (Cert.KernelIdeal.Hand.arg3 m c) (Cert.KernelIdeal.Hand.arg4 m c) (Cert.KernelIdeal.Hand.arg5 m c) (Cert.KernelIdeal.Hand.arg6 m c),
    fun c => Cert.SSM.Gh (Cert.KernelIdeal.Hand.arg0 m c) (Cert.KernelIdeal.Hand.arg1 m c) (Cert.KernelIdeal.Hand.arg2 m c) (Cert.KernelIdeal.Hand.arg3 m c) (Cert.KernelIdeal.Hand.arg4 m c),
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v35_eq, Cert.ReferenceIdeal.RefValue.ref_out,
      (hagree c).1, (hagree c).2.1, (hagree c).2.2.1, (hagree c).2.2.2.1, (hagree c).2.2.2.2.1, (hagree c).2.2.2.2.2.1, (hagree c).2.2.2.2.2.2]
  · refine (Cert.ReferenceIdeal.Read.val_main_v27_eq _ _ _ _ _).trans ?_
    rw [Cert.ReferenceIdeal.RefValue.ref_h, (hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
